-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S1 : Shape := ⟨1, ![1]⟩
abbrev S1048576 : Shape := ⟨1, ![1048576]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_
  bcast_S_S1048576 : S_.BroadcastsInDim S1048576 (![] : Fin 0 → Fin S1048576.rank)
  reducesTo_S1048576_S_d0 : S1048576.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S32x4096 .f32) (main_arg1 : FVec F S4096x4096 .f32) (main_arg2 : FVec F S1 .f32) (main_arg3 : FVec F S1048576 .f32) (main_arg4 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_arg4 main_v13 main_v16
-- ==== Kernel.lean ====
abbrev S32x4096 : Shape := ⟨2, ![32, 4096]⟩
abbrev S4096x4096 : Shape := ⟨2, ![4096, 4096]⟩
abbrev S1 : Shape := ⟨1, ![1]⟩
abbrev S1048576 : Shape := ⟨1, ![1048576]⟩
abbrev S4096 : Shape := ⟨1, ![4096]⟩
abbrev S4096x256 : Shape := ⟨2, ![4096, 256]⟩
abbrev S1x1 : Shape := ⟨2, ![1, 1]⟩
abbrev S1x4096 : Shape := ⟨2, ![1, 4096]⟩
abbrev S128x4096 : Shape := ⟨2, ![128, 4096]⟩
abbrev S128x256 : Shape := ⟨2, ![128, 256]⟩
abbrev S1x128 : Shape := ⟨2, ![1, 128]⟩
abbrev S32x128 : Shape := ⟨2, ![32, 128]⟩
abbrev S128x256x16 : Shape := ⟨3, ![128, 256, 16]⟩
abbrev S128x256x1 : Shape := ⟨3, ![128, 256, 1]⟩

abbrev nBuf : Space → Nat
  | .hbm => 9
  | .vmem => 10
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S1, .f32⟩
  | .hbm, ⟨3, _⟩ => ⟨S1048576, .f32⟩
  | .hbm, ⟨4, _⟩ => ⟨S4096, .f32⟩
  | .hbm, ⟨5, _⟩ => ⟨S4096x256, .f32⟩
  | .hbm, ⟨6, _⟩ => ⟨S1x1, .f32⟩
  | .hbm, ⟨7, _⟩ => ⟨S1x4096, .f32⟩
  | .hbm, ⟨8, _⟩ => ⟨S32x4096, .f32⟩
  | .local _ .vmem, ⟨0, _⟩ => ⟨S32x4096, .f32⟩
  | .local _ .vmem, ⟨1, _⟩ => ⟨S128x4096, .f32⟩
  | .local _ .vmem, ⟨2, _⟩ => ⟨S128x4096, .f32⟩
  | .local _ .vmem, ⟨3, _⟩ => ⟨S128x256, .f32⟩
  | .local _ .vmem, ⟨4, _⟩ => ⟨S128x256, .f32⟩
  | .local _ .vmem, ⟨5, _⟩ => ⟨S1x1, .f32⟩
  | .local _ .vmem, ⟨6, _⟩ => ⟨S1x128, .f32⟩
  | .local _ .vmem, ⟨7, _⟩ => ⟨S1x128, .f32⟩
  | .local _ .vmem, ⟨8, _⟩ => ⟨S32x128, .f32⟩
  | .local _ .vmem, ⟨9, _⟩ => ⟨S32x128, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1048576_S4096x256 : S1048576.ShapeCasts S4096x256
  shapeCasts_S1_S1x1 : S1.ShapeCasts S1x1
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x4096_S128x256x16 : S128x4096.ShapeCasts S128x256x16
  shapeCasts_S128x256_S128x256x1 : S128x256.ShapeCasts S128x256x1
  broadcasts_S128x256x1_S128x256x16 : S128x256x1.Broadcasts S128x256x16
  shapeCasts_S128x256x16_S128x4096 : S128x256x16.ShapeCasts S128x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  dot_S32x4096_S128x4096_S32x128_1_1_0_0_n_n_wf : DotDims.WF S32x4096 S128x4096 S32x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S4096x256.size a
  hwx0_2 : ∀ i : grid0.Coords, EltTy.bits .f32 = 32 ∨ (Rect.block (s := S4096x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x4096.size a
  hwx0_5 : ∀ i : grid0.Coords, EltTy.bits .f32 = 32 ∨ (Rect.block (s := S32x4096) S32x128.size (cc0_transform_5 i) (hinb0_5 i)).WholeWords (EltTy.packing .f32)

variable [Facts₀]

def dot_S32x4096_S128x4096_S32x128_1_1_0_0_n_n : DotDims S32x4096 S128x4096 S32x128 where
  lhsContracting := [1]
  rhsContracting := [1]
  lhsNonContracting := [0]
  rhsNonContracting := [0]
  lhsBatch := []
  rhsBatch := []
  wf := dot_S32x4096_S128x4096_S32x128_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S4096x4096 : Shape := ⟨2, ![4096, 4096]⟩
abbrev S1 : Shape := ⟨1, ![1]⟩
abbrev S1048576 : Shape := ⟨1, ![1048576]⟩
abbrev S4096 : Shape := ⟨1, ![4096]⟩
abbrev S1048576x16 : Shape := ⟨2, ![1048576, 16]⟩
abbrev S1048576x1 : Shape := ⟨2, ![1048576, 1]⟩
abbrev S1x1 : Shape := ⟨2, ![1, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S1, .f32⟩
  | .hbm, ⟨3, _⟩ => ⟨S1048576, .f32⟩
  | .hbm, ⟨4, _⟩ => ⟨S4096, .f32⟩
  | .hbm, ⟨5, _⟩ => ⟨S1048576x16, .f32⟩
  | .hbm, ⟨6, _⟩ => ⟨S1048576x1, .f32⟩
  | .hbm, ⟨7, _⟩ => ⟨S1048576x16, .f32⟩
  | .hbm, ⟨8, _⟩ => ⟨S1048576x16, .f32⟩
  | .hbm, ⟨9, _⟩ => ⟨S4096x4096, .f32⟩
  | .hbm, ⟨10, _⟩ => ⟨S1x1, .f32⟩
  | .hbm, ⟨11, _⟩ => ⟨S4096x4096, .f32⟩
  | .hbm, ⟨12, _⟩ => ⟨S4096x4096, .f32⟩
  | .hbm, ⟨13, _⟩ => ⟨S32x4096, .f32⟩
  | .hbm, ⟨14, _⟩ => ⟨S1x4096, .f32⟩
  | .hbm, ⟨15, _⟩ => ⟨S32x4096, .f32⟩
  | .hbm, ⟨16, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S4096x4096_S1048576x16 : S4096x4096.ShapeCasts S1048576x16
  bcast_S1048576_S1048576x1_0 : S1048576.BroadcastsInDim S1048576x1 (![0] : Fin 1 → Fin S1048576x1.rank)
  bcast_S1048576x1_S1048576x16_0_1 : S1048576x1.BroadcastsInDim S1048576x16 (![0, 1] : Fin 2 → Fin S1048576x16.rank)
  shapeCasts_S1048576x16_S4096x4096 : S1048576x16.ShapeCasts S4096x4096
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_1_0_0_n_n_wf : DotDims.WF S32x4096 S4096x4096 S32x4096 [1] [1] [0] [0] [] []

variable [Facts₀]

def dot_S32x4096_S4096x4096_S32x4096_1_1_0_0_n_n : DotDims S32x4096 S4096x4096 S32x4096 where
  lhsContracting := [1]
  rhsContracting := [1]
  lhsNonContracting := [0]
  rhsNonContracting := [0]
  lhsBatch := []
  rhsBatch := []
  wf := dot_S32x4096_S4096x4096_S32x4096_1_1_0_0_n_n_wf

class Facts : Prop extends Facts₀ where

variable [Facts]
-- ==== Proof.DequantLinear.lean ====
/-
  The linear layer with a two-level scaled weight, as ONE function of the five argument arrays.

  The weight entry (o, k) is divided first by the scale of its block of 16 consecutive inputs — the scales lie
  flat, row after row, 256 to an output row, so entry (o, k) meets the scale at position o·256 + k/16 — and then
  by the one tensor scale. The result at (b, o) is the sum over k of x(b, k) times that dequantized entry, plus
  the bias at o. Everything is read on the extended reals; the quotient is the ideal instance's `Ideal.div`.
-/
import Idealize.ShloMosaic.PureOps.Ideal
import Idealize.ShloMosaic.Lib.ValueIdx

noncomputable section

open scoped BigOperators

namespace Cert.DequantLinear

open Idealize.ShloMosaic Idealize.ShloMosaic.ValueIdx

/-- The flat position of the block scale that divides weight entry (o, k): 256 scales per output row, one per 16
    consecutive inputs. -/
def scalePos (o k : Fin 4096) : Fin 1048576 :=
  ⟨o.val * 256 + k.val / 16, by have := o.isLt; have := k.isLt; omega⟩

/-- The dequantized weight entry (o, k): the stored entry over its block scale, over the tensor scale. -/
def weight (w : (⟨2, ![4096, 4096]⟩ : Shape).Idx → EReal) (ts : (⟨1, ![1]⟩ : Shape).Idx → EReal)
    (bs : (⟨1, ![1048576]⟩ : Shape).Idx → EReal) (o k : Fin 4096) : EReal :=
  Ideal.div (Ideal.div (w (ix2 o k)) (bs (ix1 (scalePos o k)))) (ts (ix1 (0 : Fin 1)))

/-- The result entry (b, o): row b of x against dequantized weight row o, plus the bias at o. -/
def entry (x : (⟨2, ![32, 4096]⟩ : Shape).Idx → EReal) (w : (⟨2, ![4096, 4096]⟩ : Shape).Idx → EReal)
    (ts : (⟨1, ![1]⟩ : Shape).Idx → EReal) (bs : (⟨1, ![1048576]⟩ : Shape).Idx → EReal)
    (bias : (⟨1, ![4096]⟩ : Shape).Idx → EReal) (b : Fin 32) (o : Fin 4096) : EReal :=
  (∑ k : Fin 4096, x (ix2 b k) * weight w ts bs o k) + bias (ix1 o)

/-- The whole result array. -/
def out (x : (⟨2, ![32, 4096]⟩ : Shape).Idx → EReal) (w : (⟨2, ![4096, 4096]⟩ : Shape).Idx → EReal)
    (ts : (⟨1, ![1]⟩ : Shape).Idx → EReal) (bs : (⟨1, ![1048576]⟩ : Shape).Idx → EReal)
    (bias : (⟨1, ![4096]⟩ : Shape).Idx → EReal) : (⟨2, ![32, 4096]⟩ : Shape).Idx → EReal :=
  fun i => entry x w ts bs bias (i 0) (i 1)

/-- The result array at an index given by its coordinates. -/
theorem out_ix2 (x : (⟨2, ![32, 4096]⟩ : Shape).Idx → EReal) (w : (⟨2, ![4096, 4096]⟩ : Shape).Idx → EReal)
    (ts : (⟨1, ![1]⟩ : Shape).Idx → EReal) (bs : (⟨1, ![1048576]⟩ : Shape).Idx → EReal)
    (bias : (⟨1, ![4096]⟩ : Shape).Idx → EReal) (b : Fin 32) (o : Fin 4096) :
    out x w ts bs bias (ix2 b o) = entry x w ts bs bias b o := rfl

end Cert.DequantLinear

end
-- ==== Proof.RefIsSpec.lean ====
/-
  The reference's result is the specification, index by index.

  Read at (b, o) the reference's last stage is its contraction plus the broadcast bias. The contraction's right
  operand at (o, k) is the weight regrouped into rows of 16, divided by the scales broadcast along each row,
  regrouped back, and divided by the broadcast tensor scale. Entry (o, k) of the square array has flat position
  o·4096 + k, so it sits in row (o·4096 + k)/16 = o·256 + k/16 of the regrouped array, at column k mod 16; going
  there and back returns to (o, k), and the scale it meets is the one at flat position o·256 + k/16.
-/
import proofs.«120731_j14826227106504_2_alg».proof.Proof.Gen.ReferenceIdeal.Read
import proofs.«120731_j14826227106504_2_alg».proof.Proof.DequantLinear

noncomputable section

open scoped BigOperators

namespace Cert.ReferenceIdeal.RefValue

open Cert.ReferenceIdeal Cert.ReferenceIdeal.Read Idealize.ShloMosaic Idealize.ShloMosaic.ValueIdx

/-- The contraction's left index at (b, o), k is (b, k). -/
theorem lidx_eq (b : Fin 32) (o k : Fin 4096) : lidx_main_v8 (ix2 b o) k = ix2 b k :=
  funext fun a => Fin.ext (by match a with | ⟨0, _⟩ => rfl | ⟨1, _⟩ => rfl)

/-- Regrouping the square weight array into rows of 16 and back returns to entry (o, k). -/
theorem weight_idx_eq (b : Fin 32) (o k : Fin 4096) :
    idx_main_v0 (idx_main_v4 (ridx_main_v8 (ix2 b o) k)) = ix2 o k :=
  funext fun a => Fin.ext (by
    have ho : o.val < 4096 := o.isLt
    have hk : k.val < 4096 := k.isLt
    match a with
    | ⟨0, _⟩ => show ((o.val * 4096 + k.val) / 16 * 16 + (o.val * 4096 + k.val) % 16) / 4096 = o.val; omega
    | ⟨1, _⟩ => show ((o.val * 4096 + k.val) / 16 * 16 + (o.val * 4096 + k.val) % 16) % 4096 = k.val; omega)

/-- The scale that entry (o, k) meets after the regrouping is the one at flat position o·256 + k/16. -/
theorem scale_idx_eq (b : Fin 32) (o k : Fin 4096) :
    idx_main_v1 (idx_main_v2 (idx_main_v4 (ridx_main_v8 (ix2 b o) k))) = ix1 (Cert.DequantLinear.scalePos o k) :=
  funext fun a => Fin.ext (by
    have ho : o.val < 4096 := o.isLt
    have hk : k.val < 4096 := k.isLt
    match a with
    | ⟨0, _⟩ => show (o.val * 4096 + k.val) / 16 = o.val * 256 + k.val / 16; omega)

/-- The broadcast tensor scale reads its one entry everywhere. -/
theorem tscale_idx_eq (j : S4096x4096.Idx) : idx_main_v5 (idx_main_v6 j) = ix1 (0 : Fin 1) :=
  funext fun a => Fin.ext (by match a with | ⟨0, _⟩ => rfl)

/-- The broadcast bias at (b, o) reads the bias at o. -/
theorem bias_idx_eq (b : Fin 32) (o : Fin 4096) : idx_main_v9 (idx_main_v10 (ix2 b o)) = ix1 o :=
  funext fun a => Fin.ext (by match a with | ⟨0, _⟩ => rfl)

/-- The contraction's right operand at (o, k) is the dequantized weight entry. -/
theorem weight_apply (x1 : (⟨S4096x4096, .f32⟩ : BufTy).Contents (Elt Ideal)) (x2 : (⟨S1, .f32⟩ : BufTy).Contents (Elt Ideal))
    (x3 : (⟨S1048576, .f32⟩ : BufTy).Contents (Elt Ideal)) (b : Fin 32) (o k : Fin 4096) :
    val_main_v7 (F := Ideal) x1 x2 x3 (ridx_main_v8 (ix2 b o) k) = Cert.DequantLinear.weight x1 x2 x3 o k := by
  rw [val_main_v7_apply, val_main_v4_apply, val_main_v3_apply, val_main_v0_apply, val_main_v2_apply, val_main_v1_apply,
    val_main_v6_apply, val_main_v5_apply, weight_idx_eq, scale_idx_eq, tscale_idx_eq]
  rfl

/-- The reference's result array is the specification of its arguments. -/
theorem result_eq (x0 : (⟨S32x4096, .f32⟩ : BufTy).Contents (Elt Ideal)) (x1 : (⟨S4096x4096, .f32⟩ : BufTy).Contents (Elt Ideal))
    (x2 : (⟨S1, .f32⟩ : BufTy).Contents (Elt Ideal)) (x3 : (⟨S1048576, .f32⟩ : BufTy).Contents (Elt Ideal))
    (x4 : (⟨S4096, .f32⟩ : BufTy).Contents (Elt Ideal)) :
    val_main_v11 (F := Ideal) x0 x1 x2 x3 x4 = Cert.DequantLinear.out x0 x1 x2 x3 x4 := by
  funext i
  obtain ⟨b, o, rfl⟩ : ∃ (b : Fin 32) (o : Fin 4096), i = ix2 b o := ⟨i 0, i 1, eq_ix2 i⟩
  rw [val_main_v11_apply, val_main_v8_apply, val_main_v10_apply, val_main_v9_apply, bias_idx_eq, Cert.DequantLinear.out_ix2]
  unfold Cert.DequantLinear.entry
  refine congrArg (· + x4 (ix1 o)) (Finset.sum_congr rfl fun k _ => ?_)
  rw [weight_apply, lidx_eq]

end Cert.ReferenceIdeal.RefValue

end
-- ==== Proof.Tile.lean ====
/-
  The kernel body's stored value, read at one entry of its [32, 128] output tile.

  The body divides its [128, 4096] weight tile, regrouped as [128, 256, 16], by its [128, 256] scale tile
  broadcast along the groups of 16, regroups it back, divides by the one tensor scale, multiplies x against that
  tile contracting the 4096 inputs into a zero accumulator, and adds its [1, 128] bias tile to every row.
  Entry (o, k) of the weight tile sits at (o, k/16, k mod 16) of the regrouped one, so the scale it meets is the
  tile's (o, k/16). At (b, o) the stored value is therefore the sum over k of x(b, k) times
  (w(o, k) / s(o, k/16)) / t, plus the bias tile's (0, o). The change to a narrower float format on the way into
  the product is the identity on extended reals.
-/
import proofs.«120731_j14826227106504_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The group of 16 inputs that input k belongs to. -/
def group (k : Fin 4096) : Fin 256 := ⟨k.val / 16, by have := k.isLt; omega⟩

/-- The place of input k inside its group. -/
def place (k : Fin 4096) : Fin 16 := ⟨k.val % 16, by omega⟩

/-- The dequantized weight tile: the body's value that enters the product. -/
def dequant (v0 : Vec Ideal S128x4096 .f32) (v1 : Vec Ideal S128x256 .f32) (v8 : Vec Ideal S1x1 .f32) : FVec Ideal S128x4096 .f32 :=
  divf (shapeCast S128x4096
      (divf (shapeCast S128x256x16 v0 shapeCasts_S128x4096_S128x256x16 : FVec Ideal S128x256x16 .f32)
        (broadcastTo S128x256x16 (shapeCast S128x256x1 (shapeCast S128x256 v1 shapeCasts_S128x256_S128x256 : FVec Ideal S128x256 .f32) shapeCasts_S128x256_S128x256x1 : FVec Ideal S128x256x1 .f32)
          broadcasts_S128x256x1_S128x256x16)
        : FVec Ideal S128x256x16 .f32)
      shapeCasts_S128x256x16_S128x4096 : FVec Ideal S128x4096 .f32)
    (broadcast S128x4096 (extractAt ![0, 0] v8 inpos_S1x1_p0_0 : Ideal .f32))

/-- Entry (o, k) of the dequantized tile: the weight over the scale of its group, over the tensor scale. -/
theorem dequant_apply (v0 : Vec Ideal S128x4096 .f32) (v1 : Vec Ideal S128x256 .f32) (v8 : Vec Ideal S1x1 .f32) (o : Fin 128) (k : Fin 4096) :
    dequant v0 v1 v8 (ix2 o k) = Ideal.div (Ideal.div (v0 (ix2 o k)) (v1 (ix2 o (group k)))) (v8 (ix2 (0 : Fin 1) (0 : Fin 1))) := by
  have ho : o.val < 128 := o.isLt
  have hk : k.val < 4096 := k.isLt
  unfold dequant
  rw [divf_apply, broadcast_apply]
  rw [shapeCast_apply _ shapeCasts_S128x256x16_S128x4096 (ix2 o k) (ix3 o (group k) (place k))
    (by rw [Shape.rowMajor_val_three, Shape.rowMajor_val_two]
        show (o.val * 256 + k.val / 16) * 16 + k.val % 16 = o.val * 4096 + k.val; omega)]
  rw [divf_apply]
  rw [shapeCast_apply v0 shapeCasts_S128x4096_S128x256x16 (ix3 o (group k) (place k)) (ix2 o k)
    (by rw [Shape.rowMajor_val_three, Shape.rowMajor_val_two]
        show o.val * 4096 + k.val = (o.val * 256 + k.val / 16) * 16 + k.val % 16; omega)]
  rw [broadcastTo_apply _ broadcasts_S128x256x1_S128x256x16 (ix3 o (group k) (place k)) (ix3 o (group k) (0 : Fin 1))
    (fun a => by
      match a with
      | ⟨0, _⟩ => show o.val = if (128 : Nat) = 1 then 0 else o.val; rw [if_neg (by decide)]
      | ⟨1, _⟩ => show (group k).val = if (256 : Nat) = 1 then 0 else (group k).val; rw [if_neg (by decide)]
      | ⟨2, _⟩ => show 0 = if (1 : Nat) = 1 then 0 else (place k).val; rw [if_pos rfl])]
  rw [shapeCast_apply _ shapeCasts_S128x256_S128x256x1 (ix3 o (group k) (0 : Fin 1)) (ix2 o (group k))
    (by rw [Shape.rowMajor_val_three, Shape.rowMajor_val_two]
        show o.val * 256 + (group k).val = (o.val * 256 + (group k).val) * 1 + 0; omega)]
  rw [shapeCast_self]
  refine congrArg (Ideal.div _) ?_
  unfold extractAt
  exact congrArg v8 (funext fun a => Fin.ext (by match a with | ⟨0, _⟩ => rfl | ⟨1, _⟩ => rfl))

/-- The product's left index at output (b, o) runs along row b of x … -/
theorem lhs_0 (i : S32x128.Idx) (q : dot_S32x4096_S128x4096_S32x128_1_1_0_0_n_n.contr.Idx) :
    (dot_S32x4096_S128x4096_S32x128_1_1_0_0_n_n.lhsIdx i q 0).val = (i 0).val := by
  unfold DotDims.lhsIdx
  rw [dif_neg (show ¬(0 : Fin S32x4096.rank) ∈ dot_S32x4096_S128x4096_S32x128_1_1_0_0_n_n.lhsBatch by decide), dif_pos (show (0 : Fin S32x4096.rank) ∈ dot_S32x4096_S128x4096_S32x128_1_1_0_0_n_n.lhsNonContracting by decide)]
  rfl
theorem lhs_1 (i : S32x128.Idx) (q : dot_S32x4096_S128x4096_S32x128_1_1_0_0_n_n.contr.Idx) :
    (dot_S32x4096_S128x4096_S32x128_1_1_0_0_n_n.lhsIdx i q 1).val = (q ⟨0, by decide⟩).val :=
  dot_S32x4096_S128x4096_S32x128_1_1_0_0_n_n.lhsIdx_val_of_single rfl i q
/-- … and its right index along row o of the weight tile. -/
theorem rhs_0 (i : S32x128.Idx) (q : dot_S32x4096_S128x4096_S32x128_1_1_0_0_n_n.contr.Idx) :
    (dot_S32x4096_S128x4096_S32x128_1_1_0_0_n_n.rhsIdx i q 0).val = (i 1).val := by
  unfold DotDims.rhsIdx
  rw [dif_neg (show ¬(0 : Fin S128x4096.rank) ∈ dot_S32x4096_S128x4096_S32x128_1_1_0_0_n_n.rhsBatch by decide), dif_pos (show (0 : Fin S128x4096.rank) ∈ dot_S32x4096_S128x4096_S32x128_1_1_0_0_n_n.rhsNonContracting by decide)]
  rfl
theorem rhs_1 (i : S32x128.Idx) (q : dot_S32x4096_S128x4096_S32x128_1_1_0_0_n_n.contr.Idx) :
    (dot_S32x4096_S128x4096_S32x128_1_1_0_0_n_n.rhsIdx i q 1).val = (q ⟨0, by decide⟩).val :=
  dot_S32x4096_S128x4096_S32x128_1_1_0_0_n_n.rhsIdx_val_of_single rfl i q

/-- The product into the zero accumulator, at (b, o): row b of the left operand against row o of the right one. -/
theorem product_apply (X : FVec Ideal S32x4096 .bf16) (W : FVec Ideal S128x4096 .bf16) (b : Fin 32) (o : Fin 128) :
    matmul dot_S32x4096_S128x4096_S32x128_1_1_0_0_n_n none X W (constant (F := Ideal) S32x128 .f32 0x00000000#32) (ix2 b o)
      = ∑ k : Fin 4096, X (ix2 b k) * W (ix2 o k) := by
  simp only [matmul]
  rw [Ideal.matmul_constant_zero_apply, ← Equiv.sum_comp (contrEquiv1 dot_S32x4096_S128x4096_S32x128_1_1_0_0_n_n 4096 rfl rfl).symm]
  refine Finset.sum_congr rfl fun k _ => ?_
  have hk := contrEquiv1_symm_val dot_S32x4096_S128x4096_S32x128_1_1_0_0_n_n 4096 rfl rfl k
  have el : dot_S32x4096_S128x4096_S32x128_1_1_0_0_n_n.lhsIdx (ix2 b o) ((contrEquiv1 dot_S32x4096_S128x4096_S32x128_1_1_0_0_n_n 4096 rfl rfl).symm k) = ix2 b k := funext fun a => Fin.ext (by
    match a with
    | ⟨0, _⟩ => exact lhs_0 _ _
    | ⟨1, _⟩ => exact (lhs_1 _ _).trans hk)
  have er : dot_S32x4096_S128x4096_S32x128_1_1_0_0_n_n.rhsIdx (ix2 b o) ((contrEquiv1 dot_S32x4096_S128x4096_S32x128_1_1_0_0_n_n 4096 rfl rfl).symm k) = ix2 o k := funext fun a => Fin.ext (by
    match a with
    | ⟨0, _⟩ => exact rhs_0 _ _
    | ⟨1, _⟩ => exact (rhs_1 _ _).trans hk)
  rw [el, er]

/-- The body's stored value at (b, o). -/
theorem stored_apply (v0 : Vec Ideal S128x4096 .f32) (v1 : Vec Ideal S128x256 .f32) (v8 : Vec Ideal S1x1 .f32)
    (v12 : Vec Ideal S32x4096 .f32) (v16 : Vec Ideal S1x128 .f32) (b : Fin 32) (o : Fin 128) :
    k0_pay1 (F := Ideal) v0 v1 v8 v12 v16 (ix2 b o)
      = (∑ k : Fin 4096, v12 (ix2 b k) * Ideal.div (Ideal.div (v0 (ix2 o k)) (v1 (ix2 o (group k)))) (v8 (ix2 (0 : Fin 1) (0 : Fin 1))))
        + v16 (ix2 (0 : Fin 1) o) := by
  unfold k0_pay1
  show matmul dot_S32x4096_S128x4096_S32x128_1_1_0_0_n_n none (truncf .bf16 (v12 : FVec Ideal S32x4096 .f32) bitsLt_bf16_f32)
        (truncf .bf16 (dequant v0 v1 v8) bitsLt_bf16_f32) (constant (F := Ideal) S32x128 .f32 0x00000000#32) (ix2 b o)
      + broadcastTo S32x128 (shapeCast S1x128 v16 shapeCasts_S1x128_S1x128 : FVec Ideal S1x128 .f32) broadcasts_S1x128_S32x128 (ix2 b o) = _
  rw [product_apply, broadcastTo_1b_ab_apply, shapeCast_self]
  refine congrArg (· + v16 (ix2 (0 : Fin 1) o)) (Finset.sum_congr rfl fun k _ => ?_)
  rw [truncf_apply, truncf_apply, dequant_apply]

end Cert.KernelIdeal.Tile

end
-- ==== Proof.Whole.lean ====
/-
  From the 32 output tiles to the whole result array.

  Grid point t handles output rows-of-weight t·128 … t·128 + 127: it stages all of x, rows t·128 … of the weight,
  the same rows of the scales laid out [4096, 256], the one tensor scale, columns t·128 … of the bias laid out
  [1, 4096], and writes back columns t·128 … of the [32, 4096] result. The scales, the tensor scale and the bias
  reach the region regrouped by the host (a flat array of 1048576 as [4096, 256], so that (r, g) is the flat
  position r·256 + g; one entry as [1, 1]; 4096 entries as [1, 4096]). Reading every staged tile back to its
  argument array, the value point t stores at (b, o) is the specification at (b, t·128 + o). The 32 column
  blocks cover the result array — column j lies in the block of point j / 128 — so the array ends holding the
  specification of the arguments everywhere.
-/
import proofs.«120731_j14826227106504_2_alg».proof.Proof.Gen.KernelIdeal.Value
import proofs.«120731_j14826227106504_2_alg».proof.Proof.Tile
import proofs.«120731_j14826227106504_2_alg».proof.Proof.DequantLinear
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The specification of the argument arrays as launched. -/
def spec (c : Dev nD) : S32x4096.Idx → EReal :=
  Cert.DequantLinear.out (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block sits at grid point t: x and the tensor scale stay at block (0, 0), the weight and
    the scales move down the rows, the bias and the result move along the columns. Decided over the 32 points. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 32 := lt_of_lt_of_eq t.isLt (N_0 : cfg0.N = 32)

/-- The weight row (and result column) that tile row o of point t stands for. -/
def row (t : Fin cfg0.N) (o : Fin 128) : Fin 4096 :=
  ⟨t.val * 128 + o.val, by have := point_lt t; have := o.isLt; omega⟩

/-! ## The arrays the host regroups before the region -/

/-- The scales as the region finds them: the flat array regrouped [4096, 256]. -/
theorem scales_eq (c : Dev nD) :
    (V m c main_v0 : S4096x256.Idx → EReal) = shapeCast S4096x256 (m ((c : Thread nD τ).loc main_arg3)) shapeCasts_S1048576_S4096x256 := by
  dsimp only [Gen.V, Gen.hostOps0]; after_results; rfl

/-- The tensor scale as the region finds it: the one entry regrouped [1, 1]. -/
theorem tscale_eq (c : Dev nD) :
    (V m c main_v1 : S1x1.Idx → EReal) = shapeCast S1x1 (m ((c : Thread nD τ).loc main_arg2)) shapeCasts_S1_S1x1 := by
  dsimp only [Gen.V, Gen.hostOps0]; after_results; rfl

/-- The bias as the region finds it: the 4096 entries regrouped [1, 4096]. -/
theorem bias_eq (c : Dev nD) :
    (V m c main_v2 : S1x4096.Idx → EReal) = shapeCast S1x4096 (m ((c : Thread nD τ).loc main_arg4)) shapeCasts_S4096_S1x4096 := by
  dsimp only [Gen.V, Gen.hostOps0]; after_results; rfl

/-! ## Each staged tile read back to its argument array -/

/-- The x tile is x. -/
theorem x_tile (c : Dev nD) (t : Fin cfg0.N) (b : Fin 32) (k : Fin 4096) :
    (iblk m c 0 t : Vec Ideal S32x4096 .f32) (ix2 b k) = m ((c : Thread nD τ).loc main_arg0) (ix2 b k) := by
  obtain ⟨e00, e01, -⟩ := block_index t
  show V m c main_arg0 (((cfg0.win 0).blk t).view.emb (ix2 b k)) = _
  rw [V_main_arg0]
  refine congrArg _ (funext fun a => Fin.ext ?_)
  match a with
  | ⟨0, _⟩ => show win0_0.index t (0 : Fin 2) * 32 + 1 * b.val = b.val; omega
  | ⟨1, _⟩ => show win0_0.index t (1 : Fin 2) * 4096 + 1 * k.val = k.val; omega

/-- Row o of the weight tile at point t is weight row t·128 + o. -/
theorem weight_tile (c : Dev nD) (t : Fin cfg0.N) (o : Fin 128) (k : Fin 4096) :
    (iblk m c 1 t : Vec Ideal S128x4096 .f32) (ix2 o k) = m ((c : Thread nD τ).loc main_arg1) (ix2 (row t o) k) := by
  obtain ⟨-, -, e10, e11, -⟩ := block_index t
  show V m c main_arg1 (((cfg0.win 1).blk t).view.emb (ix2 o k)) = _
  rw [V_main_arg1]
  refine congrArg _ (funext fun a => Fin.ext ?_)
  match a with
  | ⟨0, _⟩ => show win0_1.index t (0 : Fin 2) * 128 + 1 * o.val = t.val * 128 + o.val; omega
  | ⟨1, _⟩ => show win0_1.index t (1 : Fin 2) * 4096 + 1 * k.val = k.val; omega

/-- Entry (o, group of k) of the scale tile at point t is the flat scale that weight entry (t·128 + o, k) meets. -/
theorem scale_tile (c : Dev nD) (t : Fin cfg0.N) (o : Fin 128) (k : Fin 4096) :
    (iblk m c 2 t : Vec Ideal S128x256 .f32) (ix2 o (Tile.group k))
      = m ((c : Thread nD τ).loc main_arg3) (ix1 (Cert.DequantLinear.scalePos (row t o) k)) := by
  obtain ⟨-, -, -, -, e20, e21, -⟩ := block_index t
  have ht := point_lt t
  have ho : o.val < 128 := o.isLt
  have hk : k.val < 4096 := k.isLt
  show V m c main_v0 (((cfg0.win 2).blk t).view.emb (ix2 o (Tile.group k))) = _
  rw [scales_eq]
  refine shapeCast_apply _ shapeCasts_S1048576_S4096x256 _ _ ?_
  rw [Shape.rowMajor_val_one, Shape.rowMajor_val_two]
  show (t.val * 128 + o.val) * 256 + k.val / 16 = (win0_2.index t (0 : Fin 2) * 128 + 1 * o.val) * 256 + (win0_2.index t (1 : Fin 2) * 256 + 1 * (k.val / 16))
  omega

/-- The tensor-scale tile is the one tensor scale. -/
theorem tscale_tile (c : Dev nD) (t : Fin cfg0.N) :
    (iblk m c 3 t : Vec Ideal S1x1 .f32) (ix2 (0 : Fin 1) (0 : Fin 1)) = m ((c : Thread nD τ).loc main_arg2) (ix1 (0 : Fin 1)) := by
  obtain ⟨-, -, -, -, -, -, e30, e31, -⟩ := block_index t
  show V m c main_v1 (((cfg0.win 3).blk t).view.emb (ix2 (0 : Fin 1) (0 : Fin 1))) = _
  rw [tscale_eq]
  refine shapeCast_apply _ shapeCasts_S1_S1x1 _ _ ?_
  rw [Shape.rowMajor_val_one, Shape.rowMajor_val_two]
  show 0 = (win0_3.index t (0 : Fin 2) * 1 + 1 * 0) * 1 + (win0_3.index t (1 : Fin 2) * 1 + 1 * 0)
  omega

/-- Column o of the bias tile at point t is the bias at t·128 + o. -/
theorem bias_tile (c : Dev nD) (t : Fin cfg0.N) (o : Fin 128) :
    (iblk m c 4 t : Vec Ideal S1x128 .f32) (ix2 (0 : Fin 1) o) = m ((c : Thread nD τ).loc main_arg4) (ix1 (row t o)) := by
  obtain ⟨-, -, -, -, -, -, -, -, e40, e41, -⟩ := block_index t
  have ht := point_lt t
  have ho : o.val < 128 := o.isLt
  show V m c main_v2 (((cfg0.win 4).blk t).view.emb (ix2 (0 : Fin 1) o)) = _
  rw [bias_eq]
  refine shapeCast_apply _ shapeCasts_S4096_S1x4096 _ _ ?_
  rw [Shape.rowMajor_val_one, Shape.rowMajor_val_two]
  show t.val * 128 + o.val = (win0_4.index t (0 : Fin 2) * 1 + 1 * 0) * 4096 + (win0_4.index t (1 : Fin 2) * 128 + 1 * o.val)
  omega

/-- Entry (b, o) of the result block at point t is result entry (b, t·128 + o). -/
theorem result_pos (t : Fin cfg0.N) (b : Fin 32) (o : Fin 128) :
    ((cfg0.win 5).blk t).view.emb (ix2 b o) = (ix2 b (row t o) : S32x4096.Idx) := by
  obtain ⟨-, -, -, -, -, -, -, -, -, -, e50, e51⟩ := block_index t
  refine funext fun a => Fin.ext ?_
  match a with
  | ⟨0, _⟩ => show win0_5.index t (0 : Fin 2) * 32 + 1 * b.val = b.val; omega
  | ⟨1, _⟩ => show win0_5.index t (1 : Fin 2) * 128 + 1 * o.val = t.val * 128 + o.val; omega

/-! ## What a point writes back, the cover, and the array after the run -/

/-- What point t writes back is block t of the specification. -/
theorem flushed_eq (c : Dev nD) (t : Fin cfg0.N) :
    (dats m 0 c).flushed 5 t = ((cfg0.win 5).blk t).view.read (Elt Ideal) (spec m c) := by
  rw [Cert.KernelIdeal.Value.flushed5]
  unfold out0_5
  rw [View.canon_unit_zero zero_offsets]
  simp only [View.ld_unit_zero (S := S128x4096) zero_offsets, View.ld_unit_zero (S := S128x256) zero_offsets,
    View.ld_unit_zero (S := S1x1) zero_offsets, View.ld_unit_zero (S := S32x4096) zero_offsets,
    View.ld_unit_zero (S := S1x128) zero_offsets]
  funext j
  obtain ⟨b, o, rfl⟩ : ∃ (b : Fin 32) (o : Fin 128), j = ix2 b o := ⟨j 0, j 1, eq_ix2 j⟩
  show k0_pay1 (F := Ideal) (iblk m c 1 t) (iblk m c 2 t) (iblk m c 3 t) (iblk m c 0 t) (iblk m c 4 t) (ix2 b o)
    = spec m c (((cfg0.win 5).blk t).view.emb (ix2 b o))
  refine (Tile.stored_apply (iblk m c 1 t) (iblk m c 2 t) (iblk m c 3 t) (iblk m c 0 t) (iblk m c 4 t) b o).trans ?_
  rw [result_pos, bias_tile, tscale_tile]
  unfold spec
  rw [Cert.DequantLinear.out_ix2]
  unfold Cert.DequantLinear.entry Cert.DequantLinear.weight
  refine congrArg (· + m ((c : Thread nD τ).loc main_arg4) (ix1 (row t o))) (Finset.sum_congr rfl fun k _ => ?_)
  rw [x_tile, weight_tile, scale_tile]

/-- An index of the result array is in point t's block iff each coordinate is in the block's range. -/
theorem mem_block (t : Fin cfg0.N) (i : S32x4096.Idx) :
    i ∈ ((cfg0.win 5).blk t).view.set ↔ ∀ a : Fin 2, win0_5.index t a * S32x128.size a ≤ (i a).val ∧ (i a).val < win0_5.index t a * S32x128.size a + S32x128.size a := by
  show i ∈ ((View.whole main_v3).slice (win0_5.rect t)).set ↔ _
  rw [View.set_slice_whole, Rect.mem_set_unit]
  exact Iff.rfl

/-- Every index of the result array is in the block of the point its column falls to. -/
theorem covered (i : S32x4096.Idx) : ∃ t : Fin cfg0.N, (cfg0.win 5).flush t = true ∧ i ∈ ((cfg0.win 5).blk t).view.set := by
  have h0 : (i 0).val < 32 := (i 0).isLt
  have h1 : (i 1).val < 4096 := (i 1).isLt
  have hN : cfg0.N = 32 := N_0
  obtain ⟨t, ht⟩ : ∃ t : Fin cfg0.N, t.val = (i 1).val / 128 := ⟨⟨(i 1).val / 128, by rw [hN]; omega⟩, rfl⟩
  obtain ⟨-, -, -, -, -, -, -, -, -, -, e50, e51⟩ := block_index t
  refine ⟨t, flush0_5 t, ?_⟩
  rw [mem_block]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 128 ≤ (i 1).val ∧ (i 1).val < win0_5.index t (1 : Fin 2) * 128 + 128; omega

/-- The result array after the run is the specification of the arguments. -/
theorem final (c : Dev nD) : (dats m 0 c).arrAt 5 cfg0.N = spec m c :=
  (dats m 0 c).arrAt_eq_of_cover 5 (spec m c) (fun t _ => flushed_eq m c t) covered

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.lean ====
/-
  A linear layer whose weight is stored with two levels of scaling, computed tile by tile, against the same
  layer written with whole-array operations.

  Both programs compute, at (b, o), the sum over the 4096 inputs k of x(b, k) · ((w(o, k) / s(o·256 + k/16)) / t)
  plus bias(o): the weight entry over the scale of its block of 16 consecutive inputs, over the one tensor
  scale. The tiled program walks 32 grid points, each dequantizing 128 rows of the weight and multiplying x
  against them into a zero accumulator; the whole-array program regroups the weight into rows of 16, divides,
  regroups back, divides again and contracts. On the extended reals the two quotients are the same operation
  in the same order on both sides, the change of float format on the way into the product is the identity, and
  a product into a zero accumulator is the plain sum, so no law of arithmetic is needed beyond matching the
  indices, and nothing is asked of the inputs: the equality holds entry by entry whatever the arrays hold.

  `DequantLinear` states that function; `RefIsSpec` reads the whole-array program down to it; `Tile` reads the
  tiled program's stored value at one tile entry; `Whole` reads the tiles back to the argument arrays and
  covers the result array with the 32 column blocks. The three frames are the generated runs; the tiled
  program's idealization rewrote nothing, so it is preserved trivially.
-/
import proofs.«120731_j14826227106504_2_alg».proof.Defs
import proofs.«120731_j14826227106504_2_alg».proof.Proof.Gen.Kernel
import proofs.«120731_j14826227106504_2_alg».proof.Proof.Gen.Kernel.Skeleton
import proofs.«120731_j14826227106504_2_alg».proof.Proof.Gen.Kernel.Launch
import proofs.«120731_j14826227106504_2_alg».proof.Proof.Gen.Kernel.Points
import proofs.«120731_j14826227106504_2_alg».proof.Proof.Gen.Kernel.Frame
import proofs.«120731_j14826227106504_2_alg».proof.Proof.Gen.KernelIdeal
import proofs.«120731_j14826227106504_2_alg».proof.Proof.Gen.KernelIdeal.Skeleton
import proofs.«120731_j14826227106504_2_alg».proof.Proof.Gen.KernelIdeal.Launch
import proofs.«120731_j14826227106504_2_alg».proof.Proof.Gen.KernelIdeal.Points
import proofs.«120731_j14826227106504_2_alg».proof.Proof.Gen.KernelIdeal.Frame
import proofs.«120731_j14826227106504_2_alg».proof.Proof.Gen.ReferenceIdeal
import proofs.«120731_j14826227106504_2_alg».proof.Proof.Gen.KernelIdeal.Value
import proofs.«120731_j14826227106504_2_alg».proof.Proof.Gen.ReferenceIdeal.Run
import proofs.«120731_j14826227106504_2_alg».proof.Proof.Gen.ReferenceIdeal.Read
import proofs.«120731_j14826227106504_2_alg».proof.Proof.Gen.Pre_finite_inputs
import proofs.«120731_j14826227106504_2_alg».proof.Proof.RefIsSpec
import proofs.«120731_j14826227106504_2_alg».proof.Proof.Whole
import Idealize.ShloMosaic.Adequacy
import Idealize.ShloMosaic.Init

noncomputable section

namespace Cert.Proof

open Idealize.ShloMosaic Idealize.ShloMosaic.TcCoe Idealize.SL.Sem

/-- The tiled program runs and leaves its arguments as they were. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The whole-array program runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the five arguments both programs end with the result array at the one function of
    those arguments: the tiled one by its tiles read back and covering the array, the whole-array one by its
    stages read down to the same sums. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
